-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S2 : Shape := ⟨1, ![2]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel
  reducesTo_S_S_d : S_.ReducesTo [] S_

variable [Facts]

def fn {F : FTy → Type} [FloatOps F] (main_arg0 : FVec F S2 .f32) (main_arg1 : IVec S_ 32) : IVec S_ 1 :=
  let main_v0 : FVec F S2 .f32 := Host.absf main_arg0
  let main_cst : FVec F S_ .f32 := constant S_ .f32 0x7F800000#32
  let main_v1 : FVec F S2 .f32 := broadcastInDim S2 ![] bcast_S_S2 main_cst
  let main_v2 : IVec S2 1 := cmpf .olt main_v0 main_v1
  let main_c : IVec S_ 1 := constantI S_ 1 1#1
  let main_v3 : IVec S_ 1 := (fun x v => Host.reduce IntOp.andi x v reducesTo_S2_S_d0 h_S_) main_v2 main_c
  let main_c_0 : IVec S_ 32 := constantI S_ 32 1#32
  let main_v4 : IVec S_ 1 := cmpi .sge main_arg1 main_c_0
  let main_c_1 : IVec S_ 32 := constantI S_ 32 1#32
  let main_v5 : IVec S_ 1 := cmpi .sle main_arg1 main_c_1
  let main_v6 : IVec S_ 1 := andi main_v4 main_v5
  let main_c_2 : IVec S_ 1 := constantI S_ 1 1#1
  let main_v7 : IVec S_ 1 := (fun x v => Host.reduce IntOp.andi x v reducesTo_S_S_d h_S_) main_v6 main_c_2
  let main_v8 : IVec S_ 1 := andi main_v3 main_v7
  main_v8
-- ==== Kernel.lean ====
abbrev S2 : Shape := ⟨1, ![2]⟩
abbrev S_ : Shape := ⟨0, ![]⟩
abbrev S1 : Shape := ⟨1, ![1]⟩

abbrev nBuf : Table → Nat
  | .hbm => 5
  | .local .scVector .vmem => 2
  | _ => 0

abbrev bufTy : (tb : Table) → Fin (nBuf tb) → BufTy
  | .hbm, ⟨0, _⟩ => ⟨S2, .f32⟩
  | .hbm, ⟨1, _⟩ => ⟨S_, .i32⟩
  | .hbm, ⟨2, _⟩ => ⟨S1, .i32⟩
  | .hbm, ⟨3, _⟩ => ⟨S1, .f32⟩
  | .hbm, ⟨4, _⟩ => ⟨S_, .f32⟩
  | .local .scVector .vmem, ⟨0, _⟩ => ⟨S1, .i32⟩
  | .local .scVector .vmem, ⟨1, _⟩ => ⟨S1, .f32⟩
  | _, _ => ⟨S2, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 1], ![false, false]⟩

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 1 | ⟨_ + 1, h⟩ => absurd h (Nat.not_lt.2 (Nat.le_add_left _ _))

class Facts₀ : Prop where
  shapeCasts_S_S1 : S_.ShapeCasts S1
  inb_S2_S2_0 : ∀ a, (![0] : Fin 1 → Nat) a + S2.size a ≤ S2.size a
  gathers_S2_S1 : S2.Gathers 0 S1
  shapeCasts_S1_S_ : S1.ShapeCasts S_
  hcc0_scoped0 : 0 + S_.numel ≤ 3
  hcc0_scoped1 : 1 + S_.numel ≤ 3
  hcc0_scoped2 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2

class Facts : Prop extends Facts₀ where

variable [Facts]
-- ==== ReferenceIdeal.lean ====
abbrev S2 : Shape := ⟨1, ![2]⟩
abbrev S_ : Shape := ⟨0, ![]⟩
abbrev S1 : Shape := ⟨1, ![1]⟩

abbrev nBuf : Space → Nat
  | .hbm => 9
  | .vmem => 0
  | .smem => 0
  | _ => 0

abbrev bufTy : (tb : Table) → Fin (tcTables nBuf tb) → BufTy
  | .hbm, ⟨0, _⟩ => ⟨S2, .f32⟩
  | .hbm, ⟨1, _⟩ => ⟨S_, .i32⟩
  | .hbm, ⟨2, _⟩ => ⟨S_, .i32⟩
  | .hbm, ⟨3, _⟩ => ⟨S_, .i1⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .f32⟩
  | .hbm, ⟨8, _⟩ => ⟨S_, .f32⟩
  | _, _ => ⟨S2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  sliceFits_S2_S1 : S2.Slices (fun _ => 0) S1
  h_S_ : 0 < S_.numel
  shapeCasts_S1_S_ : S1.ShapeCasts S_

variable [Facts₀]

class Facts : Prop extends Facts₀ where

variable [Facts]
-- ==== Proof.LookupKernelIdeal.lean ====
/-
  One tile of SparseCore 0 looks one element up: it copies the one-word index list `[k]` from HBM into its index
  scratch, gathers row `k` of the two-element array `action` into its one-element row scratch by an indexed copy, and
  copies that element out to the one-element result array. Each of the three copies has a semaphore of its own and is
  waited for before the next is issued, so nothing reads or writes a copy's source, destination or index list while it
  is pending. With the index word equal to 1 (which the precondition gives) the gathered row is row 1, a row of the
  source, so the indexed copy is served and the result array ends holding `action[1]`; `action` and `k` are only read.
  The run below states exactly that: every weakly fair execution of the device's threads terminates without a fault,
  the two argument arrays end unchanged, and the scalar result, the reshape of the one-element array, is `action[1]`.
-/
import proofs.«202700_g64811056497239_cont_9to1_m_1359_12_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«202700_g64811056497239_cont_9to1_m_1359_12_alg».proof.Proof.Gen.KernelIdeal
import proofs.«202700_g64811056497239_cont_9to1_m_1359_12_alg».proof.Proof.Gen.KernelIdeal.Skeleton

noncomputable section

namespace Cert.Proof.LookupKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 1 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays, and what the result is -/

variable (m : (ℓ : Loc nD τ sig) → Buf (Elt F) ℓ) (ρ : Dev nD → PrngReg)

/-- `action`, the scalar index `k`, the one-word index list, the one-element result array, the scalar result. -/
abbrev aLoc (d : Dev nD) : Loc nD τ sig := (SparseCore.T d).loc main_arg0
abbrev kLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev yLoc (d : Dev nD) : Loc nD τ sig := (SparseCore.T d).loc main_v2

local notation "aV" => (Memref.whole Cert.KernelIdeal.main_arg0_scv : Memref Cert.KernelIdeal.sig Kind.scVector Space.hbm Cert.KernelIdeal.S2 EltTy.f32)
local notation "iV" => (Memref.whole Cert.KernelIdeal.main_v0_scv : Memref Cert.KernelIdeal.sig Kind.scVector Space.hbm Cert.KernelIdeal.S1 EltTy.i32)
local notation "oV" => (Memref.whole Cert.KernelIdeal.main_v1_scv : Memref Cert.KernelIdeal.sig Kind.scVector Space.hbm Cert.KernelIdeal.S1 EltTy.f32)
local notation "sV" => (Memref.whole Cert.KernelIdeal.cc0_scratch0 : Memref Cert.KernelIdeal.sig Kind.scVector Space.vmem Cert.KernelIdeal.S1 EltTy.i32)
local notation "rV" => (Memref.whole Cert.KernelIdeal.cc0_scratch1 : Memref Cert.KernelIdeal.sig Kind.scVector Space.vmem Cert.KernelIdeal.S1 EltTy.f32)

/-- Row 1 of the two-element array. -/
abbrev row1 : S2.Idx := fun a => ⟨1, (by decide : ∀ a : Fin S2.rank, 1 < S2.size a) a⟩

/-- The index list the kernel is handed: the one word 1. -/
abbrev oneList (d : Dev nD) : Buf (Elt F) (iLoc d) := fun _ => (1#32 : BitVec 32)

/-- What the one-element result array ends holding: `action[1]`. -/
abbrev looked (d : Dev nD) : Buf (Elt F) (oLoc d) := fun _ => m (aLoc d) row1

/-- What the proof asks of the launch memory: the scalar index is the word 1. -/
def PreOK : Prop := ∀ d : Dev nD, m (kLoc d) = fun _ => (1#32 : BitVec 32)

variable [FloatOps F]

/-! ## What the handshakes carry -/

abbrev aPts (d : Dev nD) : sProp 𝕄 := aLoc d ↦{fullShare} m (aLoc d)
abbrev iPts (d : Dev nD) (f : Buf (Elt F) (iLoc d)) : sProp 𝕄 := iLoc d ↦{fullShare} f
abbrev oPts (d : Dev nD) (f : Buf (Elt F) (oLoc d)) : sProp 𝕄 := oLoc d ↦{fullShare} f

/-- The one call takes `action`, the index list (holding the word 1) and the result array whole, hands all three to its
    one task, and brings them back with the result array at `action[1]`. -/
def P : (K (F := F)).Pay (nD := nD) (Val := Elt F) (Name := ℕ) (U := UU) where
  st := fun _ d _ => iprop(aPts m d ∗ iPts d (oneList d) ∗ oPts d (m (oLoc d)))
  dn := fun _ d _ => iprop(aPts m d ∗ iPts d (oneList d) ∗ oPts d (looked m d))
  go := fun _ d _ _ => iprop(aPts m d ∗ iPts d (oneList d) ∗ oPts d (m (oLoc d)))
  td := fun _ d _ _ => iprop(aPts m d ∗ iPts d (oneList d) ∗ oPts d (looked m d))
  x := fun _ _ => iprop(emp)

instance P_storable : (P (F := F) m).IsStorable where
  st _ d _ := (inferInstance : BI.Storable (upEmb : UEmb _ 𝕄) iprop(aPts m d ∗ iPts d (oneList d) ∗ oPts d (m (oLoc d))))
  dn _ d _ := (inferInstance : BI.Storable (upEmb : UEmb _ 𝕄) iprop(aPts m d ∗ iPts d (oneList d) ∗ oPts d (looked m d)))
  go _ d _ _ := (inferInstance : BI.Storable (upEmb : UEmb _ 𝕄) iprop(aPts m d ∗ iPts d (oneList d) ∗ oPts d (m (oLoc d))))
  td _ d _ _ := (inferInstance : BI.Storable (upEmb : UEmb _ 𝕄) iprop(aPts m d ∗ iPts d (oneList d) ∗ oPts d (looked m d)))

/-! ## The task -/

section Tile

variable (d : Dev nD) (L : grid0.Coords)

abbrev cV (L : grid0.Coords) : Fin τ.nSC := (L 0).castLE hcore0
abbrev jV (L : grid0.Coords) : Fin τ.nSub := (L 1).castLE hsub0

omit [FloatOps F] in
theorem pts_aV (q : PosShare TreeShare) (f : Buf (Elt F) (aLoc d)) :
    ((aV).view.loc (V d (cV L) (jV L)) ↦{q} f : sProp 𝕄) = aLoc d ↦{q} f := rfl
omit [FloatOps F] in
theorem pts_iV (f : Buf (Elt F) (iLoc d)) :
    ((iV).view.loc (V d (cV L) (jV L)) ↦{fullShare} f : sProp 𝕄) = iLoc d ↦{fullShare} f := rfl
omit [FloatOps F] in
theorem pts_oV (f : Buf (Elt F) (oLoc d)) :
    ((oV).view.loc (V d (cV L) (jV L)) ↦{fullShare} f : sProp 𝕄) = oLoc d ↦{fullShare} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The three copies' semaphores, on the tile that runs them. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

omit [FloatOps F] in
/-- The tile's own semaphores at zero are the three copies' and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped2.sem : SemLoc sig).isScoped .scVector = true; decide⟩⟩⟩)]

omit [FloatOps F] in
/-- The tile's own buffers are its two scratch buffers, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The first copy lands the index list in the index scratch: whatever the scratch held, it now holds the one word 1. -/
theorem list_landed (fs : Buf (Elt F) ((V d (cV L) (jV L)).loc cc0_scratch0)) (pay : S1.Idx → Elt F .i32)
    (hpay : pay = (iV).view.read (Elt F) (oneList (F := F) d)) :
    View.write (Elt F) (sV).view fs pay Finset.univ = fun _ => (1#32 : BitVec 32) := by
  subst hpay
  rw [View.write_whole_univ]
  funext x
  simp only [Memref.view_whole, View.read_whole]

/-- `action` whole, as the indexed copy addresses its source. -/
abbrev aAll : Memref sig .scVector .hbm S2 .f32 := (aV).slice (Rect.unit (s := S2) ![0] S2.size inb_S2_S2_0) (fun _ => rfl)

omit [FloatOps F] in
/-- A one-element array has one index. -/
theorem idx_S1 (x y : S1.Idx) : x = y := funext fun a => Fin.ext (by have := (x a).isLt; have := (y a).isLt; fin_cases a; simp at *; omega)

omit [FloatOps F] in
/-- The value the three copies carry. With the index scratch holding the word 1, the indexed copy's payload is row 1 of
    `action` at the one index of the row scratch; the row scratch, written whole with it, reads back as it; and the
    result array, written whole with that read, holds `action[1]`. -/
theorem result_landed (fr : Buf (Elt F) ((V d (cV L) (jV L)).loc cc0_scratch1))
    (fo : Buf (Elt F) ((V d (cV L) (jV L)).loc cc0_scratch0)) (hfo : fo = fun _ => (1#32 : BitVec 32))
    (hin : ∀ x, ((sV).view.read (Elt F) fo x).toNat < S2.size gathers_S2_S1.axis)
    (gat : S1.Idx → Elt F .f32)
    (hgat : gat = SparseCore.gatherPayload gathers_S2_S1 ((aAll).view.read (Elt F) (m (aLoc d)))
      (SparseCore.rows ((sV).view.read (Elt F) fo) (show S1.numel = S1.size gathers_S2_S1.axis' from rfl) hin))
    (pay : S1.Idx → Elt F .f32)
    (hpay : pay = (rV).view.read (Elt F) ((rV).view.writes (Elt F) fr [⟨Rect.whole _, gat⟩])) :
    View.write (Elt F) (oV).view (m (oLoc d)) pay Finset.univ = looked m d := by
  subst hpay hgat hfo
  rw [View.write_whole_univ]
  funext x
  have hx : x = (Rect.whole S1).emb x := idx_S1 _ _
  rw [hx]
  refine (View.read_writes_cons_emb (rV).view fr (Rect.whole S1) _ [] x).trans ?_
  unfold SparseCore.gatherPayload
  rw [View.read_apply, cast_eq]
  show m (aLoc d) _ = m (aLoc d) row1
  congr 1
  funext a
  apply Fin.ext
  fin_cases a
  rfl

set_option maxHeartbeats 4000000 in
/-- The task on the tile at coordinates `L` of device `d`. -/
theorem tile_body (hF : (K (F := F)).Facts) (O : CellTallies nD τ sig (HIx 1)) (W : Waits sig (HIx 1)) (hO : ∀ g, O g none = 0) :
    iprop(levAts (K (F := F)).L (K (F := F)).lev ∗ emp
        ∗ (aPts m d ∗ iPts d (oneList d) ∗ oPts d (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather1_sc L aV (Memref.isWhole_whole _) iV (Memref.isWhole_whole _) oV (Memref.isWhole_whole _)
            sV (Memref.isWhole_whole _) rV (Memref.isWhole_whole _) cc0_scoped0 cc0_scoped1 cc0_scoped2)
          fun _ => iprop((aPts m d ∗ iPts d (oneList d) ∗ oPts d (looked m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather1_sc_eq_skeleton]; unfold cc0__gather1_sc_skel
  rw [(K (F := F)).scopedBufs_V hF d (cV L) (jV L), SparseCore.Cfg.scopedSems0_V (Val := Elt F) d (cV L) (jV L), ownSems0_V, ownBufs_V]
  iintro ⟨#Hlv, -, ⟨Ha, Hi, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ha' := (Entails.of_eq (pts_aV (F := F) d L _ _).symm) $$ Ha
  ihave Hi' := (Entails.of_eq (pts_iV (F := F) d L _).symm) $$ Hi
  ihave Ho' := (Entails.of_eq (pts_oV (F := F) d L _).symm) $$ Ho
  ihave Hs' := (Entails.of_eq (pts_sV (F := F) d L _).symm) $$ Hs
  ihave Hr' := (Entails.of_eq (pts_rV (F := F) d L _).symm) $$ Hr
  sl_exec
  have hlist := list_landed (F := F) d L fs _ (rfl : tile_body.sl.dma0 (F := F) d = _)
  have hin : ∀ x, ((sV).view.read (Elt F) (View.write (Elt F) (sV).view fs (tile_body.sl.dma0 (F := F) d) Finset.univ) x).toNat
      < S2.size gathers_S2_S1.axis := by
    intro x; rw [hlist]; simp only [Memref.view_whole, View.read_whole]; decide
  sl_exec
  have hres := result_landed (F := F) m d L fr _ hlist hin _ (rfl : tile_body.sl.gather0 (F := F) m d L fs hin = _) _
    (rfl : tile_body.sl.dma0_1 (F := F) m d L fs fr hin = _)
  sl_step
  isplitl [Ha' Hi' Ho']
  · isplitl [Ha']; · iexact Ha'
    isplitl [Hi']; · iexact Hi'
    rw [hres]; iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather1_sc (coordsV c s)
          aV (Memref.isWhole_whole _) iV (Memref.isWhole_whole _) oV (Memref.isWhole_whole _)
          sV (Memref.isWhole_whole _) rV (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Tile

/-! ## The call's one task takes all the call is handed, and hands it all back -/

theorem go0_eq (d : Dev nD) (c : Fin ((K (F := F)).nCore 0)) :
    (bigSep Finset.univ fun i : Fin ((K (F := F)).nSub 0) => (P m).go 0 d c i) = iprop(aPts m d ∗ iPts d (oneList d) ∗ oPts d (m (oLoc d))) :=
  bigSep_univ_of_subsingleton (0 : Fin 1)
theorem td0_eq (d : Dev nD) (c : Fin ((K (F := F)).nCore 0)) :
    (bigSep Finset.univ fun i : Fin ((K (F := F)).nSub 0) => (P m).td 0 d c i) = iprop(aPts m d ∗ iPts d (oneList d) ∗ oPts d (looked m d)) :=
  bigSep_univ_of_subsingleton (0 : Fin 1)

theorem vecSplit : (K (F := F)).VecSplit' (P m) 0 := by
  intro d c
  rw [go0_eq, td0_eq]
  show iprop(aPts m d ∗ iPts d (oneList d) ∗ oPts d (m (oLoc d))) ⊢ |={Set.univ}=> iprop(
      iprop(aPts m d ∗ iPts d (oneList d) ∗ oPts d (m (oLoc d)))
      ∗ (iprop(aPts m d ∗ iPts d (oneList d) ∗ oPts d (looked m d)) -∗ iprop(aPts m d ∗ iPts d (oneList d) ∗ oPts d (looked m d))))
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev k' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev y' : DevRef τ sig := Proc.devRef .tc (main_v2 : Ref sig .tc)

/-- The reshape of the scalar index into the one-word list, and of the one-element result array into the scalar result. -/
abbrev opIn : HloOp τ sig (Elt F) := StableHlo.reshape main_arg1 main_v0 rfl shapeCasts_S_S1
abbrev opOut : HloOp τ sig (Elt F) := StableHlo.reshape main_v1 main_v2 rfl shapeCasts_S1_S_

/-- The TensorCore's arrays, all unscoped. -/
abbrev S5 : Finset (DevRef τ sig) := {a', k', i', o', y'}

omit [FloatOps F] in
theorem held_S5 (d : Dev nD) (W : Valuation τ sig (Elt F)) :
    (held (T d) S5 W : sProp 𝕄)
      = iprop((aLoc d ↦{fullShare} W a') ∗ (kLoc d ↦{fullShare} W k') ∗ (iLoc d ↦{fullShare} W i')
          ∗ (oLoc d ↦{fullShare} W o') ∗ yLoc d ↦{fullShare} W y') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (kLoc d ↦{fullShare} W main_arg1) ∗ (iLoc d ↦{fullShare} W main_v0)
          ∗ (oLoc d ↦{fullShare} W main_v1) ∗ yLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The scalar result: `action[1]`. -/
abbrev answer (d : Dev nD) : Buf (Elt F) (yLoc d) := fun _ => m (aLoc d) row1

/-- The launch valuation; after the first reshape; after the call (the result array at `action[1]`). -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (looked m d)

theorem unscoped_held (d : Dev nD) : (unscopedBufs d (fun b => m ((SparseCore.T d).loc b)) : sProp 𝕄) = held (T d) S5 (V0 m d) := by
  rw [unscopedBufs_eq, held_S5]; rfl

theorem V1_a (d : Dev nD) : V1 m d a' = m (aLoc d) :=
  (opIn (F := F)).result_of_not_mem _ (show a' ∉ ({i'} : Finset (DevRef τ sig)) by decide)
theorem V1_k (d : Dev nD) : V1 m d k' = m (kLoc d) :=
  (opIn (F := F)).result_of_not_mem _ (show k' ∉ ({i'} : Finset (DevRef τ sig)) by decide)
theorem V1_o (d : Dev nD) : V1 m d o' = m (oLoc d) :=
  (opIn (F := F)).result_of_not_mem _ (show o' ∉ ({i'} : Finset (DevRef τ sig)) by decide)
theorem V1_y (d : Dev nD) : V1 m d y' = m (yLoc d) :=
  (opIn (F := F)).result_of_not_mem _ (show y' ∉ ({i'} : Finset (DevRef τ sig)) by decide)
/-- The reshape of the scalar 1 is the one-word list `[1]`. -/
theorem V1_i (hpre : PreOK m) (d : Dev nD) : V1 m d i' = oneList d := by
  unfold V1
  rw [StableHlo.reshape_result]
  funext x
  show shapeCast S1 (m (kLoc d)) shapeCasts_S_S1 x = (1#32 : BitVec 32)
  rw [hpre d]; rfl

theorem V2_a (d : Dev nD) : V2 m d a' = m (aLoc d) := (Function.update_of_ne (show a' ≠ o' by decide) _ _).trans (V1_a m d)
theorem V2_k (d : Dev nD) : V2 m d k' = m (kLoc d) := (Function.update_of_ne (show k' ≠ o' by decide) _ _).trans (V1_k m d)
theorem V2_i (hpre : PreOK m) (d : Dev nD) : V2 m d i' = oneList d := (Function.update_of_ne (show i' ≠ o' by decide) _ _).trans (V1_i m hpre d)
theorem V2_o (d : Dev nD) : V2 m d o' = looked m d := Function.update_self _ _ _
theorem V2_y (d : Dev nD) : V2 m d y' = m (yLoc d) := (Function.update_of_ne (show y' ≠ o' by decide) _ _).trans (V1_y m d)

theorem V3_a (d : Dev nD) : (opOut (F := F)).result (V2 m d) a' = m (aLoc d) :=
  ((opOut (F := F)).result_of_not_mem _ (show a' ∉ ({y'} : Finset (DevRef τ sig)) by decide)).trans (V2_a m d)
theorem V3_k (d : Dev nD) : (opOut (F := F)).result (V2 m d) k' = m (kLoc d) :=
  ((opOut (F := F)).result_of_not_mem _ (show k' ∉ ({y'} : Finset (DevRef τ sig)) by decide)).trans (V2_k m d)
/-- The reshape of the one-element array holding `action[1]` is the scalar `action[1]`. -/
theorem V3_y (d : Dev nD) : (opOut (F := F)).result (V2 m d) y' = answer m d := by
  rw [StableHlo.reshape_result]
  funext x
  show shapeCast S_ (V2 m d o') shapeCasts_S1_S_ x = m (aLoc d) row1
  rw [V2_o]; rfl

theorem held_V1 (hpre : PreOK m) (d : Dev nD) :
    (held (T d) S5 ((opIn (F := F)).result (V0 m d)) : sProp 𝕄)
      = iprop(aPts m d ∗ (kLoc d ↦{fullShare} m (kLoc d)) ∗ iPts d (oneList d) ∗ oPts d (m (oLoc d)) ∗ yLoc d ↦{fullShare} m (yLoc d)) := by
  show held (SparseCore.T d) S5 (V1 m d) = _
  rw [held_S5, V1_a, V1_k, V1_i m hpre, V1_o, V1_y]
theorem held_V3 (d : Dev nD) :
    (held (T d) S5 ((opOut (F := F)).result (V2 m d)) : sProp 𝕄)
      = iprop(aPts m d ∗ (kLoc d ↦{fullShare} m (kLoc d)) ∗ (iLoc d ↦{fullShare} (opOut (F := F)).result (V2 m d) i')
          ∗ (oLoc d ↦{fullShare} (opOut (F := F)).result (V2 m d) o') ∗ yLoc d ↦{fullShare} answer m d) := by
  rw [held_S5, V3_a, V3_k, V3_y]

theorem st0_eq (d : Dev nD) : (bigSep Finset.univ fun c : Fin ((K (F := F)).nCore 0) => (P m).st 0 d c)
    = iprop(aPts m d ∗ iPts d (oneList d) ∗ oPts d (m (oLoc d))) :=
  bigSep_univ_of_subsingleton (0 : Fin 1)
theorem dn0_eq (d : Dev nD) : (bigSep Finset.univ fun c : Fin ((K (F := F)).nCore 0) => (P m).dn 0 d c)
    = iprop(aPts m d ∗ iPts d (oneList d) ∗ oPts d (looked m d)) :=
  bigSep_univ_of_subsingleton (0 : Fin 1)

theorem hIn : (opIn (F := F)).bufs ⊆ S5 := show ({k', i'} : Finset (DevRef τ sig)) ⊆ S5 by decide
theorem hOut : (opOut (F := F)).bufs ⊆ S5 := show ({o', y'} : Finset (DevRef τ sig)) ⊆ S5 by decide

/-- What @main leaves the claim: the two arguments at their launch contents, the scalar result at `action[1]`. -/
abbrev FIN (d : Dev nD) : sProp 𝕄 := iprop(aPts m d ∗ (kLoc d ↦{fullShare} m (kLoc d)) ∗ yLoc d ↦{fullShare} answer m d)

/-- @main on device `d`'s TensorCore: the reshape of the index, the call (from `action`, the list `[1]` and the result
    array; back with the result array at `action[1]`), the reshape of the result. -/
theorem hmain (hpre : PreOK m) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opIn) (S := S5) hIn (V := V0 m d)) $$ [Hb Hheld]
  · isplitl [Hb] <;> iassumption
  iintro ⟨Hb, Hheld⟩
  rw [wp_ret]; imodintro
  ihave Hh := (Entails.of_eq (held_V1 (F := F) m hpre d)) $$ Hheld
  icases Hh with ⟨Ha, Hk, Hi, Ho, Hy⟩
  iapply ((K (F := F)).wp_run (D (F := F)) 𝒱 (EH := EH) (P := P m) κ d 0) $$ [Hst Ha Hi Ho Hb Hk Hy]
  isplitr; · iexact Hctx
  isplitl [Hst]; · iexact Hst
  isplitl [Ha Hi Ho]
  · rw [st0_eq]
    isplitl [Ha]; · iexact Ha
    isplitl [Hi]; · iexact Hi
    iexact Ho
  iintro ⟨Hst, Hdn⟩
  ihave Hdn' := (Entails.of_eq (dn0_eq m d)) $$ Hdn
  icases Hdn' with ⟨Ha, Hi, Ho⟩
  iapply (wp_hlo_within 𝒱 (SparseCore.T d) none Set.univ (op := opOut) (S := S5) hOut (V := V2 m d)) $$ [Hb Ha Hk Hi Ho Hy]
  · isplitl [Hb]; · iexact Hb
    rw [held_S5, V2_a, V2_k, V2_i m hpre, V2_o, V2_y]
    isplitl [Ha]; · iexact Ha
    isplitl [Hk]; · iexact Hk
    isplitl [Hi]; · iexact Hi
    isplitl [Ho]; · iexact Ho
    iexact Hy
  iintro ⟨Hb, Hheld⟩
  ihave Hh := (Entails.of_eq (held_V3 (F := F) m d)) $$ Hheld
  icases Hh with ⟨Ha, Hk, -, -, Hy⟩
  rw [wp_ret]; imodintro; imodintro
  isplitl [Hst]; · iexact Hst
  isplitl [Ha]; · iexact Ha
  isplitl [Hk]; · iexact Hk
  iexact Hy

def fq (d : Dev nD) (s' : Phys nD τ sig (Elt F)) : Prop :=
  s'.mem.mem (yLoc d) = answer m d ∧ s'.mem.mem (aLoc d) = m (aLoc d) ∧ s'.mem.mem (kLoc d) = m (kLoc d)

set_option maxRecDepth 16384 in
theorem hfin (d : Dev nD) (s' : Phys nD τ sig (Elt F)) : iprop(FIN m d ∗ SI s') ⊢ (⌜fq m d s'⌝ : sProp 𝕄) := by
  iintro ⟨⟨Ha, Hk, Hy⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := kLoc d) (I := Finset.univ) (q := fullShare) (f := m (kLoc d)))) $$ [HSI Hk]
  · isplitl [HSI] <;> iassumption
  icases H with ⟨%h2, HSI, -⟩
  ihave H := (SI_pointsTo_agree (st := s') (ℓ := yLoc d) (I := Finset.univ) (q := fullShare) (f := answer m d)) $$ [HSI Hy]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (yLoc c) = answer m c ∧ r.2.mem (aLoc c) = m (aLoc c) ∧ r.2.mem (kLoc c) = m (kLoc c)

/-- From a memory whose scalar index is the word 1: every weakly fair execution of the device's threads terminates
    without a fault, the scalar result is `action[1]`, and `action` and the index are unchanged. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ hpre) (fq m) (hfin m) (QC m) (fun _ h => h)

end Cert.Proof.LookupKernelIdeal

end
-- ==== Proof.LookupKernel.lean ====
/-
  One tile of SparseCore 0 looks one element up: it copies the one-word index list `[k]` from HBM into its index
  scratch, gathers row `k` of the two-element array `action` into its one-element row scratch by an indexed copy, and
  copies that element out to the one-element result array. Each of the three copies has a semaphore of its own and is
  waited for before the next is issued, so nothing reads or writes a copy's source, destination or index list while it
  is pending. With the index word equal to 1 (which the precondition gives) the gathered row is row 1, a row of the
  source, so the indexed copy is served and the result array ends holding `action[1]`; `action` and `k` are only read.
  The run below states exactly that: every weakly fair execution of the device's threads terminates without a fault,
  the two argument arrays end unchanged, and the scalar result, the reshape of the one-element array, is `action[1]`.
-/
import proofs.«202700_g64811056497239_cont_9to1_m_1359_12_alg».proof.Defs
import proofs.«202700_g64811056497239_cont_9to1_m_1359_12_alg».proof.Proof.LookupKernelIdeal
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«202700_g64811056497239_cont_9to1_m_1359_12_alg».proof.Proof.Gen.Kernel
import proofs.«202700_g64811056497239_cont_9to1_m_1359_12_alg».proof.Proof.Gen.Kernel.Skeleton

noncomputable section

namespace Cert.Proof.LookupKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 1 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays, and what the result is -/

variable (m : (ℓ : Loc nD τ sig) → Buf (Elt F) ℓ) (ρ : Dev nD → PrngReg)

/-- `action`, the scalar index `k`, the one-word index list, the one-element result array, the scalar result. -/
abbrev aLoc (d : Dev nD) : Loc nD τ sig := (SparseCore.T d).loc main_arg0
abbrev kLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev yLoc (d : Dev nD) : Loc nD τ sig := (SparseCore.T d).loc main_v2

local notation "aV" => (Memref.whole Cert.Kernel.main_arg0_scv : Memref Cert.Kernel.sig Kind.scVector Space.hbm Cert.Kernel.S2 EltTy.f32)
local notation "iV" => (Memref.whole Cert.Kernel.main_v0_scv : Memref Cert.Kernel.sig Kind.scVector Space.hbm Cert.Kernel.S1 EltTy.i32)
local notation "oV" => (Memref.whole Cert.Kernel.main_v1_scv : Memref Cert.Kernel.sig Kind.scVector Space.hbm Cert.Kernel.S1 EltTy.f32)
local notation "sV" => (Memref.whole Cert.Kernel.cc0_scratch0 : Memref Cert.Kernel.sig Kind.scVector Space.vmem Cert.Kernel.S1 EltTy.i32)
local notation "rV" => (Memref.whole Cert.Kernel.cc0_scratch1 : Memref Cert.Kernel.sig Kind.scVector Space.vmem Cert.Kernel.S1 EltTy.f32)

/-- Row 1 of the two-element array. -/
abbrev row1 : S2.Idx := fun a => ⟨1, (by decide : ∀ a : Fin S2.rank, 1 < S2.size a) a⟩

/-- The index list the kernel is handed: the one word 1. -/
abbrev oneList (d : Dev nD) : Buf (Elt F) (iLoc d) := fun _ => (1#32 : BitVec 32)

/-- What the one-element result array ends holding: `action[1]`. -/
abbrev looked (d : Dev nD) : Buf (Elt F) (oLoc d) := fun _ => m (aLoc d) row1

/-- What the proof asks of the launch memory: the scalar index is the word 1. -/
def PreOK : Prop := ∀ d : Dev nD, m (kLoc d) = fun _ => (1#32 : BitVec 32)

variable [FloatOps F]

/-! ## What the handshakes carry -/

abbrev aPts (d : Dev nD) : sProp 𝕄 := aLoc d ↦{fullShare} m (aLoc d)
abbrev iPts (d : Dev nD) (f : Buf (Elt F) (iLoc d)) : sProp 𝕄 := iLoc d ↦{fullShare} f
abbrev oPts (d : Dev nD) (f : Buf (Elt F) (oLoc d)) : sProp 𝕄 := oLoc d ↦{fullShare} f

/-- The one call takes `action`, the index list (holding the word 1) and the result array whole, hands all three to its
    one task, and brings them back with the result array at `action[1]`. -/
def P : (K (F := F)).Pay (nD := nD) (Val := Elt F) (Name := ℕ) (U := UU) where
  st := fun _ d _ => iprop(aPts m d ∗ iPts d (oneList d) ∗ oPts d (m (oLoc d)))
  dn := fun _ d _ => iprop(aPts m d ∗ iPts d (oneList d) ∗ oPts d (looked m d))
  go := fun _ d _ _ => iprop(aPts m d ∗ iPts d (oneList d) ∗ oPts d (m (oLoc d)))
  td := fun _ d _ _ => iprop(aPts m d ∗ iPts d (oneList d) ∗ oPts d (looked m d))
  x := fun _ _ => iprop(emp)

instance P_storable : (P (F := F) m).IsStorable where
  st _ d _ := (inferInstance : BI.Storable (upEmb : UEmb _ 𝕄) iprop(aPts m d ∗ iPts d (oneList d) ∗ oPts d (m (oLoc d))))
  dn _ d _ := (inferInstance : BI.Storable (upEmb : UEmb _ 𝕄) iprop(aPts m d ∗ iPts d (oneList d) ∗ oPts d (looked m d)))
  go _ d _ _ := (inferInstance : BI.Storable (upEmb : UEmb _ 𝕄) iprop(aPts m d ∗ iPts d (oneList d) ∗ oPts d (m (oLoc d))))
  td _ d _ _ := (inferInstance : BI.Storable (upEmb : UEmb _ 𝕄) iprop(aPts m d ∗ iPts d (oneList d) ∗ oPts d (looked m d)))

/-! ## The task -/

section Tile

variable (d : Dev nD) (L : grid0.Coords)

abbrev cV (L : grid0.Coords) : Fin τ.nSC := (L 0).castLE hcore0
abbrev jV (L : grid0.Coords) : Fin τ.nSub := (L 1).castLE hsub0

omit [FloatOps F] in
theorem pts_aV (q : PosShare TreeShare) (f : Buf (Elt F) (aLoc d)) :
    ((aV).view.loc (V d (cV L) (jV L)) ↦{q} f : sProp 𝕄) = aLoc d ↦{q} f := rfl
omit [FloatOps F] in
theorem pts_iV (f : Buf (Elt F) (iLoc d)) :
    ((iV).view.loc (V d (cV L) (jV L)) ↦{fullShare} f : sProp 𝕄) = iLoc d ↦{fullShare} f := rfl
omit [FloatOps F] in
theorem pts_oV (f : Buf (Elt F) (oLoc d)) :
    ((oV).view.loc (V d (cV L) (jV L)) ↦{fullShare} f : sProp 𝕄) = oLoc d ↦{fullShare} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The three copies' semaphores, on the tile that runs them. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

omit [FloatOps F] in
/-- The tile's own semaphores at zero are the three copies' and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped2.sem : SemLoc sig).isScoped .scVector = true; decide⟩⟩⟩)]

omit [FloatOps F] in
/-- The tile's own buffers are its two scratch buffers, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The first copy lands the index list in the index scratch: whatever the scratch held, it now holds the one word 1. -/
theorem list_landed (fs : Buf (Elt F) ((V d (cV L) (jV L)).loc cc0_scratch0)) (pay : S1.Idx → Elt F .i32)
    (hpay : pay = (iV).view.read (Elt F) (oneList (F := F) d)) :
    View.write (Elt F) (sV).view fs pay Finset.univ = fun _ => (1#32 : BitVec 32) := by
  subst hpay
  rw [View.write_whole_univ]
  funext x
  simp only [Memref.view_whole, View.read_whole]

/-- `action` whole, as the indexed copy addresses its source. -/
abbrev aAll : Memref sig .scVector .hbm S2 .f32 := (aV).slice (Rect.unit (s := S2) ![0] S2.size inb_S2_S2_0) (fun _ => rfl)

omit [FloatOps F] in
/-- A one-element array has one index. -/
theorem idx_S1 (x y : S1.Idx) : x = y := funext fun a => Fin.ext (by have := (x a).isLt; have := (y a).isLt; fin_cases a; simp at *; omega)

omit [FloatOps F] in
/-- The value the three copies carry. With the index scratch holding the word 1, the indexed copy's payload is row 1 of
    `action` at the one index of the row scratch; the row scratch, written whole with it, reads back as it; and the
    result array, written whole with that read, holds `action[1]`. -/
theorem result_landed (fr : Buf (Elt F) ((V d (cV L) (jV L)).loc cc0_scratch1))
    (fo : Buf (Elt F) ((V d (cV L) (jV L)).loc cc0_scratch0)) (hfo : fo = fun _ => (1#32 : BitVec 32))
    (hin : ∀ x, ((sV).view.read (Elt F) fo x).toNat < S2.size gathers_S2_S1.axis)
    (gat : S1.Idx → Elt F .f32)
    (hgat : gat = SparseCore.gatherPayload gathers_S2_S1 ((aAll).view.read (Elt F) (m (aLoc d)))
      (SparseCore.rows ((sV).view.read (Elt F) fo) (show S1.numel = S1.size gathers_S2_S1.axis' from rfl) hin))
    (pay : S1.Idx → Elt F .f32)
    (hpay : pay = (rV).view.read (Elt F) ((rV).view.writes (Elt F) fr [⟨Rect.whole _, gat⟩])) :
    View.write (Elt F) (oV).view (m (oLoc d)) pay Finset.univ = looked m d := by
  subst hpay hgat hfo
  rw [View.write_whole_univ]
  funext x
  have hx : x = (Rect.whole S1).emb x := idx_S1 _ _
  rw [hx]
  refine (View.read_writes_cons_emb (rV).view fr (Rect.whole S1) _ [] x).trans ?_
  unfold SparseCore.gatherPayload
  rw [View.read_apply, cast_eq]
  show m (aLoc d) _ = m (aLoc d) row1
  congr 1
  funext a
  apply Fin.ext
  fin_cases a
  rfl

set_option maxHeartbeats 4000000 in
/-- The task on the tile at coordinates `L` of device `d`. -/
theorem tile_body (hF : (K (F := F)).Facts) (O : CellTallies nD τ sig (HIx 1)) (W : Waits sig (HIx 1)) (hO : ∀ g, O g none = 0) :
    iprop(levAts (K (F := F)).L (K (F := F)).lev ∗ emp
        ∗ (aPts m d ∗ iPts d (oneList d) ∗ oPts d (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather1_sc L aV (Memref.isWhole_whole _) iV (Memref.isWhole_whole _) oV (Memref.isWhole_whole _)
            sV (Memref.isWhole_whole _) rV (Memref.isWhole_whole _) cc0_scoped0 cc0_scoped1 cc0_scoped2)
          fun _ => iprop((aPts m d ∗ iPts d (oneList d) ∗ oPts d (looked m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather1_sc_eq_skeleton]; unfold cc0__gather1_sc_skel
  rw [(K (F := F)).scopedBufs_V hF d (cV L) (jV L), SparseCore.Cfg.scopedSems0_V (Val := Elt F) d (cV L) (jV L), ownSems0_V, ownBufs_V]
  iintro ⟨#Hlv, -, ⟨Ha, Hi, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ha' := (Entails.of_eq (pts_aV (F := F) d L _ _).symm) $$ Ha
  ihave Hi' := (Entails.of_eq (pts_iV (F := F) d L _).symm) $$ Hi
  ihave Ho' := (Entails.of_eq (pts_oV (F := F) d L _).symm) $$ Ho
  ihave Hs' := (Entails.of_eq (pts_sV (F := F) d L _).symm) $$ Hs
  ihave Hr' := (Entails.of_eq (pts_rV (F := F) d L _).symm) $$ Hr
  sl_exec
  have hlist := list_landed (F := F) d L fs _ (rfl : tile_body.sl.dma0 (F := F) d = _)
  have hin : ∀ x, ((sV).view.read (Elt F) (View.write (Elt F) (sV).view fs (tile_body.sl.dma0 (F := F) d) Finset.univ) x).toNat
      < S2.size gathers_S2_S1.axis := by
    intro x; rw [hlist]; simp only [Memref.view_whole, View.read_whole]; decide
  sl_exec
  have hres := result_landed (F := F) m d L fr _ hlist hin _ (rfl : tile_body.sl.gather0 (F := F) m d L fs hin = _) _
    (rfl : tile_body.sl.dma0_1 (F := F) m d L fs fr hin = _)
  sl_step
  isplitl [Ha' Hi' Ho']
  · isplitl [Ha']; · iexact Ha'
    isplitl [Hi']; · iexact Hi'
    rw [hres]; iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather1_sc (coordsV c s)
          aV (Memref.isWhole_whole _) iV (Memref.isWhole_whole _) oV (Memref.isWhole_whole _)
          sV (Memref.isWhole_whole _) rV (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Tile

/-! ## The call's one task takes all the call is handed, and hands it all back -/

theorem go0_eq (d : Dev nD) (c : Fin ((K (F := F)).nCore 0)) :
    (bigSep Finset.univ fun i : Fin ((K (F := F)).nSub 0) => (P m).go 0 d c i) = iprop(aPts m d ∗ iPts d (oneList d) ∗ oPts d (m (oLoc d))) :=
  bigSep_univ_of_subsingleton (0 : Fin 1)
theorem td0_eq (d : Dev nD) (c : Fin ((K (F := F)).nCore 0)) :
    (bigSep Finset.univ fun i : Fin ((K (F := F)).nSub 0) => (P m).td 0 d c i) = iprop(aPts m d ∗ iPts d (oneList d) ∗ oPts d (looked m d)) :=
  bigSep_univ_of_subsingleton (0 : Fin 1)

theorem vecSplit : (K (F := F)).VecSplit' (P m) 0 := by
  intro d c
  rw [go0_eq, td0_eq]
  show iprop(aPts m d ∗ iPts d (oneList d) ∗ oPts d (m (oLoc d))) ⊢ |={Set.univ}=> iprop(
      iprop(aPts m d ∗ iPts d (oneList d) ∗ oPts d (m (oLoc d)))
      ∗ (iprop(aPts m d ∗ iPts d (oneList d) ∗ oPts d (looked m d)) -∗ iprop(aPts m d ∗ iPts d (oneList d) ∗ oPts d (looked m d))))
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev k' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev y' : DevRef τ sig := Proc.devRef .tc (main_v2 : Ref sig .tc)

/-- The reshape of the scalar index into the one-word list, and of the one-element result array into the scalar result. -/
abbrev opIn : HloOp τ sig (Elt F) := StableHlo.reshape main_arg1 main_v0 rfl shapeCasts_S_S1
abbrev opOut : HloOp τ sig (Elt F) := StableHlo.reshape main_v1 main_v2 rfl shapeCasts_S1_S_

/-- The TensorCore's arrays, all unscoped. -/
abbrev S5 : Finset (DevRef τ sig) := {a', k', i', o', y'}

omit [FloatOps F] in
theorem held_S5 (d : Dev nD) (W : Valuation τ sig (Elt F)) :
    (held (T d) S5 W : sProp 𝕄)
      = iprop((aLoc d ↦{fullShare} W a') ∗ (kLoc d ↦{fullShare} W k') ∗ (iLoc d ↦{fullShare} W i')
          ∗ (oLoc d ↦{fullShare} W o') ∗ yLoc d ↦{fullShare} W y') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (kLoc d ↦{fullShare} W main_arg1) ∗ (iLoc d ↦{fullShare} W main_v0)
          ∗ (oLoc d ↦{fullShare} W main_v1) ∗ yLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The scalar result: `action[1]`. -/
abbrev answer (d : Dev nD) : Buf (Elt F) (yLoc d) := fun _ => m (aLoc d) row1

/-- The launch valuation; after the first reshape; after the call (the result array at `action[1]`). -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (looked m d)

theorem unscoped_held (d : Dev nD) : (unscopedBufs d (fun b => m ((SparseCore.T d).loc b)) : sProp 𝕄) = held (T d) S5 (V0 m d) := by
  rw [unscopedBufs_eq, held_S5]; rfl

theorem V1_a (d : Dev nD) : V1 m d a' = m (aLoc d) :=
  (opIn (F := F)).result_of_not_mem _ (show a' ∉ ({i'} : Finset (DevRef τ sig)) by decide)
theorem V1_k (d : Dev nD) : V1 m d k' = m (kLoc d) :=
  (opIn (F := F)).result_of_not_mem _ (show k' ∉ ({i'} : Finset (DevRef τ sig)) by decide)
theorem V1_o (d : Dev nD) : V1 m d o' = m (oLoc d) :=
  (opIn (F := F)).result_of_not_mem _ (show o' ∉ ({i'} : Finset (DevRef τ sig)) by decide)
theorem V1_y (d : Dev nD) : V1 m d y' = m (yLoc d) :=
  (opIn (F := F)).result_of_not_mem _ (show y' ∉ ({i'} : Finset (DevRef τ sig)) by decide)
/-- The reshape of the scalar 1 is the one-word list `[1]`. -/
theorem V1_i (hpre : PreOK m) (d : Dev nD) : V1 m d i' = oneList d := by
  unfold V1
  rw [StableHlo.reshape_result]
  funext x
  show shapeCast S1 (m (kLoc d)) shapeCasts_S_S1 x = (1#32 : BitVec 32)
  rw [hpre d]; rfl

theorem V2_a (d : Dev nD) : V2 m d a' = m (aLoc d) := (Function.update_of_ne (show a' ≠ o' by decide) _ _).trans (V1_a m d)
theorem V2_k (d : Dev nD) : V2 m d k' = m (kLoc d) := (Function.update_of_ne (show k' ≠ o' by decide) _ _).trans (V1_k m d)
theorem V2_i (hpre : PreOK m) (d : Dev nD) : V2 m d i' = oneList d := (Function.update_of_ne (show i' ≠ o' by decide) _ _).trans (V1_i m hpre d)
theorem V2_o (d : Dev nD) : V2 m d o' = looked m d := Function.update_self _ _ _
theorem V2_y (d : Dev nD) : V2 m d y' = m (yLoc d) := (Function.update_of_ne (show y' ≠ o' by decide) _ _).trans (V1_y m d)

theorem V3_a (d : Dev nD) : (opOut (F := F)).result (V2 m d) a' = m (aLoc d) :=
  ((opOut (F := F)).result_of_not_mem _ (show a' ∉ ({y'} : Finset (DevRef τ sig)) by decide)).trans (V2_a m d)
theorem V3_k (d : Dev nD) : (opOut (F := F)).result (V2 m d) k' = m (kLoc d) :=
  ((opOut (F := F)).result_of_not_mem _ (show k' ∉ ({y'} : Finset (DevRef τ sig)) by decide)).trans (V2_k m d)
/-- The reshape of the one-element array holding `action[1]` is the scalar `action[1]`. -/
theorem V3_y (d : Dev nD) : (opOut (F := F)).result (V2 m d) y' = answer m d := by
  rw [StableHlo.reshape_result]
  funext x
  show shapeCast S_ (V2 m d o') shapeCasts_S1_S_ x = m (aLoc d) row1
  rw [V2_o]; rfl

theorem held_V1 (hpre : PreOK m) (d : Dev nD) :
    (held (T d) S5 ((opIn (F := F)).result (V0 m d)) : sProp 𝕄)
      = iprop(aPts m d ∗ (kLoc d ↦{fullShare} m (kLoc d)) ∗ iPts d (oneList d) ∗ oPts d (m (oLoc d)) ∗ yLoc d ↦{fullShare} m (yLoc d)) := by
  show held (SparseCore.T d) S5 (V1 m d) = _
  rw [held_S5, V1_a, V1_k, V1_i m hpre, V1_o, V1_y]
theorem held_V3 (d : Dev nD) :
    (held (T d) S5 ((opOut (F := F)).result (V2 m d)) : sProp 𝕄)
      = iprop(aPts m d ∗ (kLoc d ↦{fullShare} m (kLoc d)) ∗ (iLoc d ↦{fullShare} (opOut (F := F)).result (V2 m d) i')
          ∗ (oLoc d ↦{fullShare} (opOut (F := F)).result (V2 m d) o') ∗ yLoc d ↦{fullShare} answer m d) := by
  rw [held_S5, V3_a, V3_k, V3_y]

theorem st0_eq (d : Dev nD) : (bigSep Finset.univ fun c : Fin ((K (F := F)).nCore 0) => (P m).st 0 d c)
    = iprop(aPts m d ∗ iPts d (oneList d) ∗ oPts d (m (oLoc d))) :=
  bigSep_univ_of_subsingleton (0 : Fin 1)
theorem dn0_eq (d : Dev nD) : (bigSep Finset.univ fun c : Fin ((K (F := F)).nCore 0) => (P m).dn 0 d c)
    = iprop(aPts m d ∗ iPts d (oneList d) ∗ oPts d (looked m d)) :=
  bigSep_univ_of_subsingleton (0 : Fin 1)

theorem hIn : (opIn (F := F)).bufs ⊆ S5 := show ({k', i'} : Finset (DevRef τ sig)) ⊆ S5 by decide
theorem hOut : (opOut (F := F)).bufs ⊆ S5 := show ({o', y'} : Finset (DevRef τ sig)) ⊆ S5 by decide

/-- What @main leaves the claim: the two arguments at their launch contents, the scalar result at `action[1]`. -/
abbrev FIN (d : Dev nD) : sProp 𝕄 := iprop(aPts m d ∗ (kLoc d ↦{fullShare} m (kLoc d)) ∗ yLoc d ↦{fullShare} answer m d)

/-- @main on device `d`'s TensorCore: the reshape of the index, the call (from `action`, the list `[1]` and the result
    array; back with the result array at `action[1]`), the reshape of the result. -/
theorem hmain (hpre : PreOK m) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opIn) (S := S5) hIn (V := V0 m d)) $$ [Hb Hheld]
  · isplitl [Hb] <;> iassumption
  iintro ⟨Hb, Hheld⟩
  rw [wp_ret]; imodintro
  ihave Hh := (Entails.of_eq (held_V1 (F := F) m hpre d)) $$ Hheld
  icases Hh with ⟨Ha, Hk, Hi, Ho, Hy⟩
  iapply ((K (F := F)).wp_run (D (F := F)) 𝒱 (EH := EH) (P := P m) κ d 0) $$ [Hst Ha Hi Ho Hb Hk Hy]
  isplitr; · iexact Hctx
  isplitl [Hst]; · iexact Hst
  isplitl [Ha Hi Ho]
  · rw [st0_eq]
    isplitl [Ha]; · iexact Ha
    isplitl [Hi]; · iexact Hi
    iexact Ho
  iintro ⟨Hst, Hdn⟩
  ihave Hdn' := (Entails.of_eq (dn0_eq m d)) $$ Hdn
  icases Hdn' with ⟨Ha, Hi, Ho⟩
  iapply (wp_hlo_within 𝒱 (SparseCore.T d) none Set.univ (op := opOut) (S := S5) hOut (V := V2 m d)) $$ [Hb Ha Hk Hi Ho Hy]
  · isplitl [Hb]; · iexact Hb
    rw [held_S5, V2_a, V2_k, V2_i m hpre, V2_o, V2_y]
    isplitl [Ha]; · iexact Ha
    isplitl [Hk]; · iexact Hk
    isplitl [Hi]; · iexact Hi
    isplitl [Ho]; · iexact Ho
    iexact Hy
  iintro ⟨Hb, Hheld⟩
  ihave Hh := (Entails.of_eq (held_V3 (F := F) m d)) $$ Hheld
  icases Hh with ⟨Ha, Hk, -, -, Hy⟩
  rw [wp_ret]; imodintro; imodintro
  isplitl [Hst]; · iexact Hst
  isplitl [Ha]; · iexact Ha
  isplitl [Hk]; · iexact Hk
  iexact Hy

def fq (d : Dev nD) (s' : Phys nD τ sig (Elt F)) : Prop :=
  s'.mem.mem (yLoc d) = answer m d ∧ s'.mem.mem (aLoc d) = m (aLoc d) ∧ s'.mem.mem (kLoc d) = m (kLoc d)

set_option maxRecDepth 16384 in
theorem hfin (d : Dev nD) (s' : Phys nD τ sig (Elt F)) : iprop(FIN m d ∗ SI s') ⊢ (⌜fq m d s'⌝ : sProp 𝕄) := by
  iintro ⟨⟨Ha, Hk, Hy⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := kLoc d) (I := Finset.univ) (q := fullShare) (f := m (kLoc d)))) $$ [HSI Hk]
  · isplitl [HSI] <;> iassumption
  icases H with ⟨%h2, HSI, -⟩
  ihave H := (SI_pointsTo_agree (st := s') (ℓ := yLoc d) (I := Finset.univ) (q := fullShare) (f := answer m d)) $$ [HSI Hy]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (yLoc c) = answer m c ∧ r.2.mem (aLoc c) = m (aLoc c) ∧ r.2.mem (kLoc c) = m (kLoc c)

/-- From a memory whose scalar index is the word 1: every weakly fair execution of the device's threads terminates
    without a fault, the scalar result is `action[1]`, and `action` and the index are unchanged. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ hpre) (fq m) (hfin m) (QC m) (fun _ h => h)

end Cert.Proof.LookupKernel

end
-- ==== Proof.LookupRef.lean ====
/-
  The reference looks the same element up on the host: it wraps a negative index round (`k < 0` selects `k + 2`, else
  `k`), takes the one-element slice of `action` that starts there (the start clamped into `[0, 1]`), and reshapes it to a
  scalar. At the index word 1 nothing wraps and nothing is clamped: the slice starts at 1 and the result is `action[1]`.
-/
import proofs.«202700_g64811056497239_cont_9to1_m_1359_12_alg».proof.Defs
import proofs.«202700_g64811056497239_cont_9to1_m_1359_12_alg».proof.Proof.Gen.ReferenceIdeal
import proofs.«202700_g64811056497239_cont_9to1_m_1359_12_alg».proof.Proof.RefRun
import Idealize.ShloMosaic.Lib.DynamicIndex
import Idealize.ShloMosaic.Lib.Pipeline.Value

noncomputable section

namespace Cert.Proof.LookupRef

open Idealize.ShloMosaic Idealize.SL.Sem
open Cert.ReferenceIdeal Cert.ReferenceIdeal.Gen

variable {F : FTy → Type} [FloatOps F]

/-- Row 1 of the two-element array. -/
abbrev row1 : S2.Idx := fun a => ⟨1, (by decide : ∀ a : Fin S2.rank, 1 < S2.size a) a⟩

/-- The scalar index holding the word 1. -/
abbrev one : (⟨S_, .i32⟩ : BufTy).Contents (Elt F) := fun _ => (1#32 : BitVec 32)

/-- The start of the slice, read signed: the index word 1 is not negative, so it is not wrapped round. -/
theorem start_one (k : Fin S2.rank) :
    (((![select (cmpi .slt (one (F := F)) (constantI S_ 32 0#32)) (addi (one (F := F)) (constantI S_ 32 2#32)) (one (F := F))]
        : Fin 1 → (⟨S_, .i32⟩ : BufTy).Contents (Elt F))) k (Shape.Idx.first h_S_)).toInt
      = (((fun _ => 1 : Fin S2.rank → Nat) k : Nat) : Int) := by
  fin_cases k
  show BitVec.toInt (select (cmpi .slt (constantI S_ 32 (BitVec.ofNat 32 1)) (constantI S_ 32 0#32))
      (addi (constantI S_ 32 (BitVec.ofNat 32 1)) (constantI S_ 32 2#32)) (constantI S_ 32 (BitVec.ofNat 32 1)) (Shape.Idx.first h_S_))
    = ((1 : Nat) : Int)
  exact toInt_wrap_ofNat (s := S_) 1 (by norm_num) (d := constantI S_ 32 2#32) (i := Shape.Idx.first h_S_)

/-- A one-element slice starting at 1 fits in a two-element array. -/
theorem fits_one : S2.Slices (fun _ => 1) S1 := by decide

/-- The reference's result at the index word 1: the slice is not clamped, it starts at 1, and its one element,
    reshaped to a scalar, is `action[1]`. -/
theorem ref_value (x0 : (⟨S2, .f32⟩ : BufTy).Contents (Elt F)) :
    shapeCast S_ (Host.dynamicSlice S1 x0 (fun k => (((![select (cmpi .slt (one (F := F)) (constantI S_ 32 0#32))
        (addi (one (F := F)) (constantI S_ 32 2#32)) (one (F := F))] : Fin 1 → (⟨S_, .i32⟩ : BufTy).Contents (Elt F))) k (Shape.Idx.first h_S_)).toInt)
        sliceFits_S2_S1) shapeCasts_S1_S_
      = fun _ => x0 row1 := by
  funext j
  rw [Host.dynamicSlice_eq_extractStridedSlice S1 x0 _ (fun _ => 1) sliceFits_S2_S1 fits_one start_one]
  have hn : S1.numel = 1 := by decide
  have hn0 : S_.numel = 1 := by decide
  rw [shapeCast_apply _ shapeCasts_S1_S_ j (fun a => ⟨0, (by decide : ∀ a : Fin S1.rank, 0 < S1.size a) a⟩) (by
    have h1 := (S1.rowMajor (fun a => ⟨0, (by decide : ∀ a : Fin S1.rank, 0 < S1.size a) a⟩)).isLt
    have h2 := (S_.rowMajor j).isLt
    omega)]
  exact extractStridedSlice_apply _ x0 fits_one _ row1 (fun a => by fin_cases a; rfl)

end Cert.Proof.LookupRef

end
-- ==== Proof.LookupPre.lean ====
/-
  What the precondition says of the index. `input_domain` is the conjunction of "every entry of `action` is finite"
  and "`1 ≤ k` and `k ≤ 1`, read signed"; where it is all ones the second conjunct holds, and a 32-bit word whose signed
  value is at least 1 and at most 1 is the word 1. Finiteness of `action` is not used: the lookup moves an element and
  computes nothing with it.
-/
import proofs.«202700_g64811056497239_cont_9to1_m_1359_12_alg».proof.Pre_input_domain
import proofs.«202700_g64811056497239_cont_9to1_m_1359_12_alg».proof.Proof.Gen.Pre_input_domain
import Idealize.ShloMosaic.Lib.ReduceAll
import Idealize.ShloMosaic.Lib.Affine

noncomputable section

namespace Cert.Proof.LookupPre

open Idealize.ShloMosaic
open Cert.Pre_input_domain Cert.Pre_input_domain.Gen

variable {F : FTy → Type} [FloatOps F]

/-- A scalar has one index. -/
instance : Subsingleton S_.Idx := ⟨fun a b => funext fun d => d.elim0⟩

/-- A word at least 1 and at most 1, both read signed, is 1. -/
theorem word_one (v : BitVec 32) (h : IntOp.andi (IntOp.cmpi .sge v 1#32) (IntOp.cmpi .sle v 1#32) = 1#1) : v = 1#32 := by
  have ofBool_eq_one (p : Bool) : (BitVec.ofBool p = 1#1) ↔ p = true := by cases p <;> decide
  obtain ⟨h1, h2⟩ := IntOp.andi_eq_one.mp h
  simp only [IntOp.cmpi, ofBool_eq_one, BitVec.sle_eq_decide, decide_eq_true_eq] at h1 h2
  apply BitVec.eq_of_toInt_eq
  have : (1#32 : BitVec 32).toInt = 1 := by decide
  omega

/-- Where `input_domain` is all ones the index is the word 1. -/
theorem index_one (a : FVec F S2 .f32) (k : IVec S_ 32) (h : fn (F := F) a k = fun _ => 1#1) : k = fun _ => (1#32 : BitVec 32) := by
  have e := congrFun h (fun d => d.elim0)
  dsimp only [fn] at e
  obtain ⟨-, e2⟩ := IntOp.andi_eq_one.mp e
  funext j
  have e3 := Host.reduce_andi_all _ _ _ _ _ e2 j
  exact word_one _ e3

end Cert.Proof.LookupPre

end
-- ==== Proof.lean ====
/-
  The kernel and the reference both return `action[k]`, and under the precondition `k` is the word 1.
  The kernel reshapes `k` to a one-word list, has one SparseCore tile gather the listed row of `action` by an indexed copy
  and copy it out, and reshapes the one-element result to a scalar; the reference wraps a negative index, slices one
  element at the clamped start, and reshapes. At `k = 1` the index names a row of the two-element array, so the indexed
  copy is served and the kernel's threads all terminate; nothing wraps and nothing is clamped on the reference's side;
  both results are the element `action[1]`, moved and never computed with, so they are equal as extended reals with no
  appeal to finiteness. The three frames are the runs with the result dropped; the idealization rewrote nothing.
-/
import proofs.«202700_g64811056497239_cont_9to1_m_1359_12_alg».proof.Defs
import proofs.«202700_g64811056497239_cont_9to1_m_1359_12_alg».proof.Proof.Gen.Kernel
import proofs.«202700_g64811056497239_cont_9to1_m_1359_12_alg».proof.Proof.Gen.Kernel.Skeleton
import proofs.«202700_g64811056497239_cont_9to1_m_1359_12_alg».proof.Proof.Gen.KernelIdeal
import proofs.«202700_g64811056497239_cont_9to1_m_1359_12_alg».proof.Proof.Gen.KernelIdeal.Skeleton
import proofs.«202700_g64811056497239_cont_9to1_m_1359_12_alg».proof.Proof.Gen.ReferenceIdeal
import proofs.«202700_g64811056497239_cont_9to1_m_1359_12_alg».proof.Proof.RefRun
import proofs.«202700_g64811056497239_cont_9to1_m_1359_12_alg».proof.Proof.Gen.Pre_input_domain
import proofs.«202700_g64811056497239_cont_9to1_m_1359_12_alg».proof.Proof.LookupKernelIdeal
import proofs.«202700_g64811056497239_cont_9to1_m_1359_12_alg».proof.Proof.LookupKernel
import proofs.«202700_g64811056497239_cont_9to1_m_1359_12_alg».proof.Proof.LookupRef
import proofs.«202700_g64811056497239_cont_9to1_m_1359_12_alg».proof.Proof.LookupPre
import Idealize.ShloMosaic.Adequacy
import Idealize.ShloMosaic.Init

noncomputable section

namespace Cert.Proof

open Idealize.ShloMosaic Idealize.ShloMosaic.TcCoe Idealize.SL.Sem

/-- Under the precondition the word-level kernel's index is the word 1, -/
theorem index_Kernel (m : (ℓ : Loc Cert.Kernel.nD Cert.Kernel.τ Cert.Kernel.sig) → Buf (Elt Bits) ℓ)
    (h : Cert.Pre_Kernel (hPre_input_domain := Cert.Pre_input_domain.Gen.facts) m) : LookupKernel.PreOK (F := Bits) m :=
  fun d => LookupPre.index_one _ _ (h d)

/-- and so is the idealized kernel's. -/
theorem index_KernelIdeal (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : LookupKernelIdeal.PreOK (F := Ideal) m :=
  fun d => LookupPre.index_one _ _ (h d)

/-- The word-level kernel runs and leaves its arguments unchanged: its run, the result dropped. -/
theorem frame_k : Cert.frame_Kernel (hKernel := Cert.Kernel.Gen.facts) (hPre_input_domain := Cert.Pre_input_domain.Gen.facts) :=
  fun m ρ hpre => (θ_run Cert.Kernel.defs _ _).mono (fun _ h c => (h c).2)
    (LookupKernel.run_main (F := Bits) m ρ (index_Kernel m hpre))

/-- The same for the idealized kernel. -/
theorem frame_ki : Cert.frame_KernelIdeal (hKernelIdeal := Cert.KernelIdeal.Gen.facts) (hPre_input_domain := Cert.Pre_input_domain.Gen.facts) :=
  fun m ρ hpre => (θ_run Cert.KernelIdeal.defs _ _).mono (fun _ h c => (h c).2)
    (LookupKernelIdeal.run_main (F := Ideal) m ρ (index_KernelIdeal m hpre))

/-- The reference is a straight line of host operations: its run, the result dropped. -/
theorem frame_ri : Cert.frame_ReferenceIdeal (hReferenceIdeal := Cert.ReferenceIdeal.Gen.facts) (hPre_input_domain := Cert.Pre_input_domain.Gen.facts) :=
  fun m ρ _ => (θ_run Cert.ReferenceIdeal.defs _ _).mono (fun _ h c => (h c).2) (Cert.ReferenceIdeal.ValueP.run (F := Ideal) m ρ)

/-- Both idealized programs end with the scalar `action[1]`: the kernel by its run, the reference because at the index
    word 1 its slice starts at 1 (`LookupRef.ref_value`), the arguments agreeing. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  refine ⟨fun c => LookupKernelIdeal.answer m c, ?_, ?_⟩
  · exact (θ_run Cert.KernelIdeal.defs _ _).mono (fun _ h c => h c)
      (LookupKernelIdeal.run_main (F := Ideal) m ρ (index_KernelIdeal m hpre))
  · refine (θ_run Cert.ReferenceIdeal.defs _ _).mono (fun _ h c => ⟨?_, (h c).2⟩)
      (Cert.ReferenceIdeal.ValueP.run (F := Ideal) m' ρ')
    have hk : m' ((c.tc : Thread Cert.ReferenceIdeal.nD Cert.ReferenceIdeal.τ).loc Cert.ReferenceIdeal.main_arg1) = fun _ => (1#32 : BitVec 32) :=
      (hagree c).2.trans (index_KernelIdeal m hpre c)
    refine (h c).1.trans ?_
    rw [hk]
    refine (LookupRef.ref_value (F := Ideal) _).trans ?_
    rw [(hagree c).1]
    rfl

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
